-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x10000 .f32) (main_arg1 : FVec F S10000x512 .f32) (main_arg2 : FVec F S512x512 .f32) (main_arg3 : FVec F S512 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S400x10000 : Shape := ⟨2, ![400, 10000]⟩
abbrev S400x512 : Shape := ⟨2, ![400, 512]⟩

abbrev nBuf : Space → Nat
  | .hbm => 8
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S10000x512, .bf16⟩
  | .hbm, ⟨7, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1000x512, .bf16⟩
  | .local _ .vmem, ⟨4, _⟩ => ⟨S1000x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S400x512, .f32⟩
  | .local _ .vmem, ⟨10, _⟩ => ⟨S400x512, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1000x512_S1000x512_0_0 : (Rect.unit (s := S1000x512) ![0, 0] S1000x512.size inb_S1000x512_S1000x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S10000x512.size a
  hwx1_3 : ∀ i : grid1.Coords, EltTy.bits .f32 = 32 ∨ (Rect.block (s := S10000x512) S400x512.size (cc1_transform_3 i) (hinb1_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg1) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S512x512, .f32⟩
  | .hbm, ⟨3, _⟩ => ⟨S512, .f32⟩
  | .hbm, ⟨4, _⟩ => ⟨S10000x512, .f32⟩
  | .hbm, ⟨5, _⟩ => ⟨S10000x512, .f32⟩
  | .hbm, ⟨6, _⟩ => ⟨S1x512, .f32⟩
  | .hbm, ⟨7, _⟩ => ⟨S10000x512, .f32⟩
  | .hbm, ⟨8, _⟩ => ⟨S10000x512, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Run.lean ====
/-
  The run of the two-call program with its result named. The program is a stretch of two host operations (the weights'
  change of format, the bias reshaped to one row) followed by the two pipelined calls. Every weakly fair execution
  terminates, and at the end every buffer that outlives the calls holds the contents obtained by folding the program's
  segments over the launch memory: the host stretch applies its two operations; each call leaves its input arrays as
  it found them and its output array at what its grid points wrote back. The result buffer is one of those buffers, so
  it ends at that fold's value there, and the four arguments end as launched.
-/
import proofs.«113006_g20366734917714_cont_sun_m_391_6_alg».proof.Proof.Gen.KernelIdeal.Frame

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents there, and the four arguments end as launched. -/
theorem kernel_run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Gcn

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.Body.lean ====
/-
  What each of the two kernel bodies stores, read at an entry of its block, over the extended reals.
  The first body multiplies a block of 1000 feature rows by the whole weight matrix: entry `(p, q)` of what it stores
  is row `p` of the block against column `q` of the weights. The second multiplies a block of 400 adjacency rows by
  the whole feature product and adds the bias row: entry `(p, q)` is row `p` of the block against column `q` of the
  product, plus the bias at `q`. The changes of float format around the products are identities on the extended reals,
  and a product accumulated from zero is the plain sum.
-/
import proofs.«113006_g20366734917714_cont_sun_m_391_6_alg».proof.Proof.Gen.KernelIdeal.Skeleton
import proofs.«113006_g20366734917714_cont_sun_m_391_6_alg».proof.Proof.LibMatRead
import Idealize.ShloMosaic.Lib.Pipeline.Value
import Idealize.ShloMosaic.Lib.ValueIdx
import Idealize.ShloMosaic.Lib.ValueLayout
import Idealize.ShloMosaic.PureOps.Ideal.Laws

noncomputable section
open scoped BigOperators
open Idealize.ShloMosaic Idealize.ShloMosaic.ValueIdx

namespace Cert.Gcn

open Cert.KernelIdeal Cert.KernelIdeal.Gen

/-- The first body's stored block at `(p, q)`: row `p` of the feature block against column `q` of the weights. -/
theorem featureBlock_apply (x0 : FVec Ideal S1000x512 .f32) (x1 : FVec Ideal S512x512 .bf16) (p : Fin 1000) (q : Fin 512) :
    k0_pay1 (F := Ideal) x0 x1 (ix2 p q) = ∑ k : Fin 512, x0 (ix2 p k) * x1 (ix2 k q) := by
  unfold k0_pay1
  refine (Cert.MatRead.matmul_row_col_apply dot_S1000x512_S512x512_S1000x512_1_0_0_1_n_n rfl rfl rfl rfl rfl rfl none
    _ _ p q).trans ?_
  refine Finset.sum_congr rfl fun k _ => ?_
  rw [shapeCast_self]
  rfl

/-- The second body's stored block at `(p, q)`: row `p` of the adjacency block against column `q` of the feature
    product, plus the bias at `q`. -/
theorem outputBlock_apply (x0 : FVec Ideal S400x10000 .f32) (x1 : FVec Ideal S10000x512 .bf16) (x2 : FVec Ideal S1x512 .f32)
    (p : Fin 400) (q : Fin 512) :
    k1_pay1 (F := Ideal) x0 x1 x2 (ix2 p q)
      = (∑ l : Fin 10000, x0 (ix2 p l) * x1 (ix2 l q)) + x2 (ix2 (0 : Fin 1) q) := by
  unfold k1_pay1
  refine (addf_apply _ _ _).trans ?_
  refine congrArg₂ (· + ·) ?_ ?_
  · refine (Cert.MatRead.matmul_row_col_apply dot_S400x10000_S10000x512_S400x512_1_0_0_1_n_n rfl rfl rfl rfl rfl rfl none
      _ _ p q).trans ?_
    refine Finset.sum_congr rfl fun l _ => ?_
    rw [shapeCast_self]
    rfl
  · refine (broadcastTo_1b_ab_apply _ _ p q).trans ?_
    rw [shapeCast_self]

/-- The first body's stored block at any of its indices. -/
theorem featureBlock_at (x0 : FVec Ideal S1000x512 .f32) (x1 : FVec Ideal S512x512 .bf16) (y : S1000x512.Idx) :
    k0_pay1 (F := Ideal) x0 x1 y = ∑ k : Fin 512, x0 (ix2 (y 0) k) * x1 (ix2 k (y 1)) := by
  obtain ⟨p, q, rfl⟩ : ∃ (p : Fin 1000) (q : Fin 512), y = ix2 p q := ⟨y 0, y 1, eq_ix2 y⟩
  exact featureBlock_apply x0 x1 p q

/-- The second body's stored block at any of its indices. -/
theorem outputBlock_at (x0 : FVec Ideal S400x10000 .f32) (x1 : FVec Ideal S10000x512 .bf16) (x2 : FVec Ideal S1x512 .f32)
    (y : S400x512.Idx) :
    k1_pay1 (F := Ideal) x0 x1 x2 y
      = (∑ l : Fin 10000, x0 (ix2 (y 0) l) * x1 (ix2 l (y 1))) + x2 (ix2 (0 : Fin 1) (y 1)) := by
  obtain ⟨p, q, rfl⟩ : ∃ (p : Fin 400) (q : Fin 512), y = ix2 p q := ⟨y 0, y 1, eq_ix2 y⟩
  exact outputBlock_apply x0 x1 x2 p q

end Cert.Gcn

end
-- ==== Proof.Spec.lean ====
/-
  The layer as a function of its four arrays, entry by entry, over the extended reals.
  A graph-convolution layer takes the adjacency matrix `A` (10000 × 10000), the node features `X` (10000 × 512), the
  weights `W` (512 × 512) and the bias `b` (512). It first forms the feature product `S = X · W`,
  `S[l, j] = Σ_k X[l, k] · W[k, j]`, and then aggregates over the graph and adds the bias,
  `out[i, j] = (Σ_l A[i, l] · S[l, j]) + b[j]`. Both sums are finite sums in the commutative monoid of the extended
  reals, so their value does not depend on the order in which the terms are taken.
-/
import Idealize.ShloMosaic.PureOps.Ideal
import Idealize.ShloMosaic.Lib.ValueIdx

noncomputable section
open scoped BigOperators
open Idealize.ShloMosaic Idealize.ShloMosaic.ValueIdx

namespace Cert.Gcn

/-- Entry `(l, j)` of the feature product: row `l` of the features against column `j` of the weights, summed over
    the 512 shared coordinates. -/
def support (x : (⟨2, ![10000, 512]⟩ : Shape).Idx → EReal) (w : (⟨2, ![512, 512]⟩ : Shape).Idx → EReal)
    (l : Fin 10000) (j : Fin 512) : EReal :=
  ∑ k : Fin 512, x (ix2 l k) * w (ix2 k j)

/-- Entry `(i, j)` of the layer's output: row `i` of the adjacency matrix against column `j` of the feature product,
    summed over the 10000 nodes, plus the bias of column `j`. -/
def layer (adj : (⟨2, ![10000, 10000]⟩ : Shape).Idx → EReal) (x : (⟨2, ![10000, 512]⟩ : Shape).Idx → EReal)
    (w : (⟨2, ![512, 512]⟩ : Shape).Idx → EReal) (b : (⟨1, ![512]⟩ : Shape).Idx → EReal)
    (i : Fin 10000) (j : Fin 512) : EReal :=
  (∑ l : Fin 10000, adj (ix2 i l) * support x w l j) + b (ix1 j)

/-- The feature product as a whole array. -/
def supportArr (x : (⟨2, ![10000, 512]⟩ : Shape).Idx → EReal) (w : (⟨2, ![512, 512]⟩ : Shape).Idx → EReal) :
    (⟨2, ![10000, 512]⟩ : Shape).Idx → EReal :=
  fun i => support x w (i 0) (i 1)

/-- The layer's output as a whole array. -/
def layerArr (adj : (⟨2, ![10000, 10000]⟩ : Shape).Idx → EReal) (x : (⟨2, ![10000, 512]⟩ : Shape).Idx → EReal)
    (w : (⟨2, ![512, 512]⟩ : Shape).Idx → EReal) (b : (⟨1, ![512]⟩ : Shape).Idx → EReal) :
    (⟨2, ![10000, 512]⟩ : Shape).Idx → EReal :=
  fun i => layer adj x w b (i 0) (i 1)

theorem supportArr_apply (x : (⟨2, ![10000, 512]⟩ : Shape).Idx → EReal) (w : (⟨2, ![512, 512]⟩ : Shape).Idx → EReal)
    (l : Fin 10000) (j : Fin 512) : supportArr x w (ix2 l j) = support x w l j := rfl

theorem layerArr_apply (adj : (⟨2, ![10000, 10000]⟩ : Shape).Idx → EReal) (x : (⟨2, ![10000, 512]⟩ : Shape).Idx → EReal)
    (w : (⟨2, ![512, 512]⟩ : Shape).Idx → EReal) (b : (⟨1, ![512]⟩ : Shape).Idx → EReal)
    (i : Fin 10000) (j : Fin 512) : layerArr adj x w b (ix2 i j) = layer adj x w b i j := rfl

end Cert.Gcn

end
-- ==== Proof.Region0.lean ====
/-
  The first call leaves the feature product in its output array.
  Its grid has ten points. Point `t` reads rows `1000 t … 1000 t + 999` of the features and the whole weight matrix
  (which the host stretch before it only changed the format of, an identity on the extended reals) and writes back rows
  `1000 t … 1000 t + 999` of the output: entry `(r, j)` of that block is row `1000 t + r` of the features against
  column `j` of the weights, which is the feature product at `(1000 t + r, j)`. The ten blocks tile the 10000 rows:
  row `i` lies in the block of point `i / 1000`. So the output array ends as the feature product everywhere.
-/
import proofs.«113006_g20366734917714_cont_sun_m_391_6_alg».proof.Proof.Gen.KernelIdeal.Frame
import proofs.«113006_g20366734917714_cont_sun_m_391_6_alg».proof.Proof.Body
import proofs.«113006_g20366734917714_cont_sun_m_391_6_alg».proof.Proof.Spec
import Idealize.ShloMosaic.Lib.Pipeline.Value
import Idealize.ShloMosaic.Lib.StableHlo.Run
import Idealize.ShloMosaic.Lib.Tactic

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The origin of a rank-2 block. -/
theorem origin2 : (![0, 0] : Fin 2 → Nat) = fun _ => 0 := funext fun a => by fin_cases a <;> rfl

/-- The weights as the first call finds them: the host's change of format is an identity on the extended reals. -/
theorem weights_entry (c : Dev nD) :
    (V1 m ρ c main_call0_v0 : S512x512.Idx → EReal) = m ((c.tc : Thread nD τ).loc main_arg2) := by
  show StableHlo.after hostOps0 (W0 m ρ c) (Proc.devRef .tc main_call0_v0) = _
  after_results
  rfl

/-- The features as the first call finds them: no host operation writes them. -/
theorem features_entry (c : Dev nD) :
    (V1 m ρ c main_arg1 : S10000x512.Idx → EReal) = m ((c.tc : Thread nD τ).loc main_arg1) := by
  show StableHlo.after hostOps0 (W0 m ρ c) (Proc.devRef .tc main_arg1) = _
  after_results

/-- The block indices of the first call's three windows at point `t`: the feature block and the output block are
    block `t` of their rows, the weights are one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `1000 t … 1000 t + 999` of the features. -/
theorem featureRows (c : Dev nD) (t : Fin cfg0.N) (y : S1000x512.Idx) (i : S10000x512.Idx)
    (h0 : (i 0).val = 1000 * t.val + (y 0).val) (h1 : (i 1).val = (y 1).val) :
    (iblk0 (V1 m ρ) c 0 t : Vec Ideal S1000x512 .f32) y
      = (m ((c.tc : Thread nD τ).loc main_arg1) : S10000x512.Idx → EReal) i := by
  obtain ⟨e0, e1, -⟩ := blockIndex0 t
  unfold iblk0
  rw [View.read_apply]
  show V1 m ρ c main_arg1 _ = _
  rw [features_entry]
  congr 1
  funext a
  apply Fin.ext
  match a with
  | ⟨0, _⟩ => show win0_0.index t 0 * 1000 + 1 * (y 0).val = (i 0).val; rw [e0, h0]; omega
  | ⟨1, _⟩ => show win0_0.index t 1 * 512 + 1 * (y 1).val = (i 1).val; rw [e1, h1]; omega

/-- The weight block at every point is the whole weight matrix. -/
theorem weightsWhole (c : Dev nD) (t : Fin cfg0.N) (y : S512x512.Idx) :
    (iblk0 (V1 m ρ) c 1 t : Vec Ideal S512x512 .bf16) y
      = (m ((c.tc : Thread nD τ).loc main_arg2) : S512x512.Idx → EReal) y := by
  obtain ⟨-, -, e0, e1, -⟩ := blockIndex0 t
  unfold iblk0
  rw [View.read_apply]
  show V1 m ρ c main_call0_v0 _ = _
  rw [weights_entry]
  congr 1
  funext a
  apply Fin.ext
  match a with
  | ⟨0, _⟩ => show win0_1.index t 0 * 512 + 1 * (y 0).val = (y 0).val; rw [e0]; omega
  | ⟨1, _⟩ => show win0_1.index t 1 * 512 + 1 * (y 1).val = (y 1).val; rw [e1]; omega

/-- What point `t` writes back is block `t` of the feature product of the launch arrays. -/
theorem flushed0 (c : Dev nD) (t : Fin cfg0.N) :
    (dat0 (V1 m ρ) c).flushed 2 t = ((cfg0.win 2).blk t).view.read (Elt Ideal)
      (supportArr (m ((c.tc : Thread nD τ).loc main_arg1)) (m ((c.tc : Thread nD τ).loc main_arg2))) := by
  obtain ⟨-, -, -, -, e0, e1⟩ := blockIndex0 t
  show (cfg0.win 2).cut (grid0.coords t) ((dat0 (V1 m ρ) c).after 2 t) = _
  rw [after0_2]
  unfold out0_2
  rw [View.canon_unit_zero origin2]
  simp only [View.ld_unit_zero (S := S1000x512) origin2, View.ld_unit_zero (S := S512x512) origin2]
  funext j
  show k0_pay1 (F := Ideal) (iblk0 (V1 m ρ) c 0 t) (iblk0 (V1 m ρ) c 1 t) ((win0 2).xinj (grid0.coords t) j)
    = supportArr (m ((c.tc : Thread nD τ).loc main_arg1)) (m ((c.tc : Thread nD τ).loc main_arg2))
        (((cfg0.win 2).blk t).view.emb j)
  refine (featureBlock_at _ _ _).trans ?_
  unfold supportArr support
  refine Finset.sum_congr rfl fun k _ => ?_
  refine congrArg₂ (· * ·) ?_ ?_
  · refine featureRows m ρ c t _ _ ?_ rfl
    show win0_2.index t 0 * 1000 + 1 * (j 0).val = 1000 * t.val + (j 0).val
    rw [e0]; omega
  · refine (weightsWhole m ρ c t _).trans (congrArg _ (congrArg (ix2 k) (Fin.ext ?_)))
    show (j 1).val = win0_2.index t 1 * 512 + 1 * (j 1).val
    rw [e1]; omega

/-- An index of the output array is in point `t`'s block iff each coordinate is in the block's range on its axis. -/
theorem mem_block0 (t : Fin cfg0.N) (i : S10000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_call0_v2).slice (win0_2.rect t)).set ↔ _
  rw [View.set_slice_whole, Rect.mem_set_unit]
  exact Iff.rfl

/-- Every row of the output array lies in the block some point writes back: row `i` in that of point `i / 1000`. -/
theorem cover0 (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, e0, e1⟩ := blockIndex0 t
  refine ⟨t, flush0_2 t, ?_⟩
  rw [mem_block0]
  intro a
  match a with
  | ⟨0, _⟩ =>
    show win0_2.index t 0 * 1000 ≤ (i 0).val ∧ (i 0).val < win0_2.index t 0 * 1000 + 1000
    rw [e0, ht]; omega
  | ⟨1, _⟩ =>
    show win0_2.index t 1 * 512 ≤ (i 1).val ∧ (i 1).val < win0_2.index t 1 * 512 + 512
    rw [e1]; omega

/-- After the first call its output array is the feature product of the launch arrays. -/
theorem support_array (c : Dev nD) :
    (dat0 (V1 m ρ) c).arrAt 2 cfg0.N
      = supportArr (m ((c.tc : Thread nD τ).loc main_arg1)) (m ((c.tc : Thread nD τ).loc main_arg2)) :=
  (dat0 (V1 m ρ) c).arrAt_eq_of_cover 2 _ (fun t _ => flushed0 m ρ c t) cover0

end Cert.Gcn

end
-- ==== Proof.Region1.lean ====
/-
  The second call leaves the layer's output in the result array.
  Its grid has twenty-five points. Point `t` reads rows `400 t … 400 t + 399` of the adjacency matrix, the whole feature
  product (the first call's output array, which nothing writes in between) and the bias as one row (the host's reshape
  of the bias vector), and writes back rows `400 t … 400 t + 399` of the result: entry `(r, j)` of that block is row
  `400 t + r` of the adjacency matrix against column `j` of the feature product, plus the bias at `j` — the layer at
  `(400 t + r, j)`. The twenty-five blocks tile the 10000 rows: row `i` lies in the block of point `i / 400`.
-/
import proofs.«113006_g20366734917714_cont_sun_m_391_6_alg».proof.Proof.Gen.KernelIdeal.Frame
import proofs.«113006_g20366734917714_cont_sun_m_391_6_alg».proof.Proof.Body
import proofs.«113006_g20366734917714_cont_sun_m_391_6_alg».proof.Proof.Spec
import proofs.«113006_g20366734917714_cont_sun_m_391_6_alg».proof.Proof.Region0
import Idealize.ShloMosaic.Lib.ValueLayout
import Idealize.ShloMosaic.Lib.Pipeline.Value
import Idealize.ShloMosaic.Lib.StableHlo.Run
import Idealize.ShloMosaic.Lib.Tactic

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The adjacency matrix as the second call finds it: neither the host stretch nor the first call writes it. -/
theorem adjacency_entry (c : Dev nD) :
    (V2 m ρ c main_arg0 : S10000x10000.Idx → EReal) = m ((c.tc : Thread nD τ).loc main_arg0) :=
  (W2_of_ne m ρ c main_arg0 (by decide)).trans (by
    show StableHlo.after hostOps0 (W0 m ρ c) (Proc.devRef .tc main_arg0) = _
    after_results)

/-- The feature product as the second call finds it: the first call's output array. -/
theorem support_entry (c : Dev nD) :
    (V2 m ρ c main_call0_v2 : S10000x512.Idx → EReal)
      = supportArr (m ((c.tc : Thread nD τ).loc main_arg1)) (m ((c.tc : Thread nD τ).loc main_arg2)) :=
  (W2_arr m ρ c 2).trans (support_array m ρ c)

/-- The bias row as the second call finds it: the bias vector read through the host's reshape to one row. -/
theorem bias_entry (c : Dev nD) (u : Fin 1) (q : Fin 512) :
    (V2 m ρ c main_call0_v1 : S1x512.Idx → EReal) (ix2 u q)
      = (m ((c.tc : Thread nD τ).loc main_arg3) : S512.Idx → EReal) (ix1 q) := by
  have e : (V2 m ρ c main_call0_v1 : S1x512.Idx → EReal)
      = shapeCast S1x512 (m ((c.tc : Thread nD τ).loc main_arg3) : S512.Idx → EReal) shapeCasts_S512_S1x512 :=
    (W2_of_ne m ρ c main_call0_v1 (by decide)).trans (by
      show StableHlo.after hostOps0 (W0 m ρ c) (Proc.devRef .tc main_call0_v1) = _
      after_results
      rfl)
  rw [e]
  exact shapeCast_a_1a_apply _ _ u q

/-- The block indices of the second call's four windows at point `t`: the adjacency block and the result block are
    block `t` of their rows, the feature product and the bias row are one block each. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency block at point `t` is rows `400 t … 400 t + 399` of the adjacency matrix. -/
theorem adjacencyRows (c : Dev nD) (t : Fin cfg1.N) (y : S400x10000.Idx) (i : S10000x10000.Idx)
    (h0 : (i 0).val = 400 * t.val + (y 0).val) (h1 : (i 1).val = (y 1).val) :
    (iblk1 (V2 m ρ) c 0 t : Vec Ideal S400x10000 .f32) y
      = (m ((c.tc : Thread nD τ).loc main_arg0) : S10000x10000.Idx → EReal) i := by
  obtain ⟨e0, e1, -⟩ := blockIndex1 t
  unfold iblk1
  rw [View.read_apply]
  show V2 m ρ c main_arg0 _ = _
  rw [adjacency_entry]
  congr 1
  funext a
  apply Fin.ext
  match a with
  | ⟨0, _⟩ => show win1_0.index t 0 * 400 + 1 * (y 0).val = (i 0).val; rw [e0, h0]; omega
  | ⟨1, _⟩ => show win1_0.index t 1 * 10000 + 1 * (y 1).val = (i 1).val; rw [e1, h1]; omega

/-- The feature-product block at every point is the whole feature product. -/
theorem supportWhole (c : Dev nD) (t : Fin cfg1.N) (y : S10000x512.Idx) :
    (iblk1 (V2 m ρ) c 1 t : Vec Ideal S10000x512 .bf16) y
      = supportArr (m ((c.tc : Thread nD τ).loc main_arg1)) (m ((c.tc : Thread nD τ).loc main_arg2)) y := by
  obtain ⟨-, -, e0, e1, -⟩ := blockIndex1 t
  unfold iblk1
  rw [View.read_apply]
  show V2 m ρ c main_call0_v2 _ = _
  rw [support_entry]
  congr 1
  funext a
  apply Fin.ext
  match a with
  | ⟨0, _⟩ => show win1_1.index t 0 * 10000 + 1 * (y 0).val = (y 0).val; rw [e0]; omega
  | ⟨1, _⟩ => show win1_1.index t 1 * 512 + 1 * (y 1).val = (y 1).val; rw [e1]; omega

/-- The bias block at every point, read at column `q` of its one row, is the bias at `q`. -/
theorem biasRow (c : Dev nD) (t : Fin cfg1.N) (q : Fin 512) :
    (iblk1 (V2 m ρ) c 2 t : Vec Ideal S1x512 .f32) (ix2 (0 : Fin 1) q)
      = (m ((c.tc : Thread nD τ).loc main_arg3) : S512.Idx → EReal) (ix1 q) := by
  obtain ⟨-, -, -, -, e0, e1, -⟩ := blockIndex1 t
  unfold iblk1
  rw [View.read_apply]
  show V2 m ρ c main_call0_v1 _ = _
  refine Eq.trans (congrArg _ ?_) (bias_entry m ρ c 0 q)
  funext a
  apply Fin.ext
  match a with
  | ⟨0, _⟩ => show win1_2.index t 0 * 1 + 1 * 0 = 0; rw [e0]
  | ⟨1, _⟩ => show win1_2.index t 1 * 512 + 1 * q.val = q.val; rw [e1]; omega

/-- What point `t` writes back is block `t` of the layer of the launch arrays. -/
theorem flushed1 (c : Dev nD) (t : Fin cfg1.N) :
    (dat1 (V2 m ρ) c).flushed 3 t = ((cfg1.win 3).blk t).view.read (Elt Ideal)
      (layerArr (m ((c.tc : Thread nD τ).loc main_arg0)) (m ((c.tc : Thread nD τ).loc main_arg1))
        (m ((c.tc : Thread nD τ).loc main_arg2)) (m ((c.tc : Thread nD τ).loc main_arg3))) := by
  obtain ⟨-, -, -, -, -, -, e0, e1⟩ := blockIndex1 t
  show (cfg1.win 3).cut (grid1.coords t) ((dat1 (V2 m ρ) c).after 3 t) = _
  rw [after1_3]
  unfold out1_3
  rw [View.canon_unit_zero origin2]
  simp only [View.ld_unit_zero (S := S400x10000) origin2, View.ld_unit_zero (S := S10000x512) origin2,
    View.ld_unit_zero (S := S1x512) origin2]
  funext j
  show k1_pay1 (F := Ideal) (iblk1 (V2 m ρ) c 0 t) (iblk1 (V2 m ρ) c 1 t) (iblk1 (V2 m ρ) c 2 t)
      ((win1 3).xinj (grid1.coords t) j)
    = layerArr (m ((c.tc : Thread nD τ).loc main_arg0)) (m ((c.tc : Thread nD τ).loc main_arg1))
        (m ((c.tc : Thread nD τ).loc main_arg2)) (m ((c.tc : Thread nD τ).loc main_arg3))
        (((cfg1.win 3).blk t).view.emb j)
  refine (outputBlock_at _ _ _ _).trans ?_
  unfold layerArr layer
  have hcol : (j 1).val = win1_3.index t 1 * 512 + 1 * (j 1).val := by rw [e1]; omega
  refine congrArg₂ (· + ·) (Finset.sum_congr rfl fun l _ => congrArg₂ (· * ·) ?_ ?_) ?_
  · refine adjacencyRows m ρ c t _ _ ?_ rfl
    show win1_3.index t 0 * 400 + 1 * (j 0).val = 400 * t.val + (j 0).val
    rw [e0]; omega
  · refine (supportWhole m ρ c t _).trans ?_
    exact congrArg (support _ _ l) (Fin.ext hcol)
  · refine (biasRow m ρ c t _).trans (congrArg _ (congrArg ix1 (Fin.ext hcol)))

/-- An index of the result array is in point `t`'s block iff each coordinate is in the block's range on its axis. -/
theorem mem_block1 (t : Fin cfg1.N) (i : S10000x512.Idx) :
    i ∈ ((cfg1.win 3).blk t).view.set ↔ ∀ a : Fin 2, win1_3.index t a * S400x512.size a ≤ (i a).val
      ∧ (i a).val < win1_3.index t a * S400x512.size a + S400x512.size a := by
  show i ∈ ((View.whole main_v0).slice (win1_3.rect t)).set ↔ _
  rw [View.set_slice_whole, Rect.mem_set_unit]
  exact Iff.rfl

/-- Every row of the result array lies in the block some point writes back: row `i` in that of point `i / 400`. -/
theorem cover1 (i : S10000x512.Idx) :
    ∃ t : Fin cfg1.N, (cfg1.win 3).flush t = true ∧ i ∈ ((cfg1.win 3).blk t).view.set := by
  have hi0 : (i 0).val < 10000 := (i 0).isLt
  have hi1 : (i 1).val < 512 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, e0, e1⟩ := blockIndex1 t
  refine ⟨t, flush1_3 t, ?_⟩
  rw [mem_block1]
  intro a
  match a with
  | ⟨0, _⟩ =>
    show win1_3.index t 0 * 400 ≤ (i 0).val ∧ (i 0).val < win1_3.index t 0 * 400 + 400
    rw [e0, ht]; omega
  | ⟨1, _⟩ =>
    show win1_3.index t 1 * 512 ≤ (i 1).val ∧ (i 1).val < win1_3.index t 1 * 512 + 512
    rw [e1]; omega

/-- After the second call the result array is the layer of the launch arrays. -/
theorem layer_array (c : Dev nD) :
    (dat1 (V2 m ρ) c).arrAt 3 cfg1.N
      = layerArr (m ((c.tc : Thread nD τ).loc main_arg0)) (m ((c.tc : Thread nD τ).loc main_arg1))
          (m ((c.tc : Thread nD τ).loc main_arg2)) (m ((c.tc : Thread nD τ).loc main_arg3)) :=
  (dat1 (V2 m ρ) c).arrAt_eq_of_cover 3 _ (fun t _ => flushed1 m ρ c t) cover1

/-- The result buffer's contents at the last boundary: the layer of the launch arrays. -/
theorem result_value (c : Dev nD) :
    (W3 m ρ c (Proc.devRef .tc main_v0) : S10000x512.Idx → EReal)
      = layerArr (m ((c.tc : Thread nD τ).loc main_arg0)) (m ((c.tc : Thread nD τ).loc main_arg1))
          (m ((c.tc : Thread nD τ).loc main_arg2)) (m ((c.tc : Thread nD τ).loc main_arg3)) :=
  (W3_arr m ρ c 3).trans (layer_array m ρ c)

end Cert.Gcn

end
-- ==== Proof.RefSide.lean ====
/-
  The reference computes the layer: its two matrix products read at an entry are the two sums of the specification, and
  its bias, broadcast first to one row and then to every row, read at `(i, j)` is the bias at `j`.
-/
import proofs.«113006_g20366734917714_cont_sun_m_391_6_alg».proof.Defs
import proofs.«113006_g20366734917714_cont_sun_m_391_6_alg».proof.Proof.Gen.ReferenceIdeal.Read
import proofs.«113006_g20366734917714_cont_sun_m_391_6_alg».proof.Proof.Spec
import Idealize.ShloMosaic.Lib.ValueIdx
import Idealize.ShloMosaic.PureOps.Ideal.Laws

noncomputable section
open scoped BigOperators
open Idealize.ShloMosaic Idealize.ShloMosaic.ValueIdx

namespace Cert.Gcn

open Cert.ReferenceIdeal Cert.ReferenceIdeal.Read

/-- The left factor of the reference's second product at `(i, j)`, term `l`, is the adjacency matrix at `(i, l)`. -/
theorem adj_index (i : Fin 10000) (j : Fin 512) (l : Fin 10000) : lidx_main_v1 (ix2 i j) l = ix2 i l :=
  funext fun a => Fin.ext (by match a with | ⟨0, _⟩ => rfl | ⟨1, _⟩ => rfl)

/-- The right factor of the reference's second product at `(i, j)`, term `l`, is the feature product at `(l, j)`. -/
theorem support_index (i : Fin 10000) (j : Fin 512) (l : Fin 10000) : ridx_main_v1 (ix2 i j) l = ix2 l j :=
  funext fun a => Fin.ext (by match a with | ⟨0, _⟩ => rfl | ⟨1, _⟩ => rfl)

/-- The left factor of the reference's first product at `(l, j)`, term `k`, is the features at `(l, k)`. -/
theorem feature_index (l : Fin 10000) (j : Fin 512) (k : Fin 512) : lidx_main_v0 (ix2 l j) k = ix2 l k :=
  funext fun a => Fin.ext (by match a with | ⟨0, _⟩ => rfl | ⟨1, _⟩ => rfl)

/-- The right factor of the reference's first product at `(l, j)`, term `k`, is the weights at `(k, j)`. -/
theorem weight_index (l : Fin 10000) (j : Fin 512) (k : Fin 512) : ridx_main_v0 (ix2 l j) k = ix2 k j :=
  funext fun a => Fin.ext (by match a with | ⟨0, _⟩ => rfl | ⟨1, _⟩ => rfl)

/-- The bias broadcast to every row, read at `(i, j)`, is the bias at `j`. -/
theorem bias_index (i : Fin 10000) (j : Fin 512) : idx_main_v2 (idx_main_v3 (ix2 i j)) = ix1 j :=
  funext fun a => Fin.ext (by match a with | ⟨0, _⟩ => rfl)

/-- The reference's feature product is the specification's. -/
theorem reference_support (x1 : (⟨S10000x512, .f32⟩ : BufTy).Contents (Elt Ideal)) (x2 : (⟨S512x512, .f32⟩ : BufTy).Contents (Elt Ideal))
    (l : Fin 10000) (j : Fin 512) : val_main_v0 (F := Ideal) x1 x2 (ix2 l j) = support x1 x2 l j := by
  rw [val_main_v0_apply]
  unfold support
  refine Finset.sum_congr rfl fun k _ => ?_
  rw [feature_index, weight_index]

/-- The reference's result is the layer of its four arguments. -/
theorem reference_layer (x0 : (⟨S10000x10000, .f32⟩ : BufTy).Contents (Elt Ideal)) (x1 : (⟨S10000x512, .f32⟩ : BufTy).Contents (Elt Ideal))
    (x2 : (⟨S512x512, .f32⟩ : BufTy).Contents (Elt Ideal)) (x3 : (⟨S512, .f32⟩ : BufTy).Contents (Elt Ideal)) :
    val_main_v4 (F := Ideal) x0 x1 x2 x3 = layerArr x0 x1 x2 x3 := by
  funext i
  obtain ⟨p, q, rfl⟩ : ∃ (p : Fin 10000) (q : Fin 512), i = ix2 p q := ⟨i 0, i 1, eq_ix2 i⟩
  rw [val_main_v4_apply, val_main_v1_apply, val_main_v3_apply, val_main_v2_apply, layerArr_apply, bias_index]
  unfold layer
  refine congrArg₂ (· + ·) ?_ rfl
  refine Finset.sum_congr rfl fun l _ => ?_
  rw [adj_index, support_index, reference_support]

end Cert.Gcn

end
-- ==== Proof.lean ====
/-
  A graph-convolution layer, `out = A · (X · W) + b`, computed by two pipelined calls against the plain reference.
  The kernel first changes the weights' float format and reshapes the bias to one row on the host, then runs two calls:
  the first writes the feature product `S = X · W` block by block (ten blocks of 1000 rows), the second writes
  `A · S + b` block by block (twenty-five blocks of 400 rows), each product accumulated from zero. The reference forms
  the same two products whole and adds the bias broadcast to every row. Over the extended reals a change of float
  format is the identity and a product accumulated from zero is the finite sum of the products of the entries, so both
  programs end with `out[i, j] = (Σ_l A[i, l] · (Σ_k X[l, k] · W[k, j])) + b[j]` at every entry: the same nested sums,
  term for term, with no rearrangement, so nothing about the inputs being finite is used.
  The three frame claims are the programs' runs with the results forgotten; the idealization rewrote no operation, so
  its claim is trivial; the value claim puts the kernel's run (its result array read off the two calls' write-backs)
  beside the reference's run (its result read one operation at a time), both at the layer of the launch arrays.
-/
import proofs.«113006_g20366734917714_cont_sun_m_391_6_alg».proof.Defs
import proofs.«113006_g20366734917714_cont_sun_m_391_6_alg».proof.Proof.Gen.Kernel
import proofs.«113006_g20366734917714_cont_sun_m_391_6_alg».proof.Proof.Gen.Kernel.Skeleton
import proofs.«113006_g20366734917714_cont_sun_m_391_6_alg».proof.Proof.Gen.Kernel.Launch
import proofs.«113006_g20366734917714_cont_sun_m_391_6_alg».proof.Proof.Gen.Kernel.Points
import proofs.«113006_g20366734917714_cont_sun_m_391_6_alg».proof.Proof.Gen.Kernel.Frame
import proofs.«113006_g20366734917714_cont_sun_m_391_6_alg».proof.Proof.Gen.KernelIdeal
import proofs.«113006_g20366734917714_cont_sun_m_391_6_alg».proof.Proof.Gen.KernelIdeal.Skeleton
import proofs.«113006_g20366734917714_cont_sun_m_391_6_alg».proof.Proof.Gen.KernelIdeal.Launch
import proofs.«113006_g20366734917714_cont_sun_m_391_6_alg».proof.Proof.Gen.KernelIdeal.Points
import proofs.«113006_g20366734917714_cont_sun_m_391_6_alg».proof.Proof.Gen.KernelIdeal.Frame
import proofs.«113006_g20366734917714_cont_sun_m_391_6_alg».proof.Proof.Gen.ReferenceIdeal
import proofs.«113006_g20366734917714_cont_sun_m_391_6_alg».proof.Proof.Gen.ReferenceIdeal.Run
import proofs.«113006_g20366734917714_cont_sun_m_391_6_alg».proof.Proof.Gen.ReferenceIdeal.Read
import proofs.«113006_g20366734917714_cont_sun_m_391_6_alg».proof.Proof.Gen.Pre_finite_inputs
import proofs.«113006_g20366734917714_cont_sun_m_391_6_alg».proof.Proof.Run
import proofs.«113006_g20366734917714_cont_sun_m_391_6_alg».proof.Proof.Region1
import proofs.«113006_g20366734917714_cont_sun_m_391_6_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their result. -/
theorem algebraic : Cert.algebraic_KernelIdeal_ReferenceIdeal := by
  intro m ρ m' ρ' _ hagree
  refine ⟨fun c => Cert.Gcn.layerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Gcn.result_value m ρ c), (h c).2⟩) (Cert.Gcn.kernel_run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, Cert.Gcn.reference_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
